-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x4096x64 : Shape := ⟨4, ![4, 16, 4096, 64]⟩
abbrev S256x64 : Shape := ⟨2, ![256, 64]⟩
abbrev S256 : Shape := ⟨1, ![256]⟩
abbrev S_ : Shape := ⟨0, ![]⟩

class Facts : Prop where
  bcast_S_S4x16x4096x64 : S_.BroadcastsInDim S4x16x4096x64 (![] : Fin 0 → Fin S4x16x4096x64.rank)
  reducesTo_S4x16x4096x64_S_d0_1_2_3 : S4x16x4096x64.ReducesTo [0, 1, 2, 3] S_
  h_S_ : 0 < S_.numel
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S4x16x4096x64 .f32) (main_arg1 : FVec F S256x64 .f32) (main_arg2 : FVec F S256 .f32) : IVec S_ 1 :=
  let main_v0 : FVec F S4x16x4096x64 .f32 := Host.absf main_arg0
  let main_cst : FVec F S_ .f32 := constant S_ .f32 0x7F800000#32
  let main_v1 : FVec F S4x16x4096x64 .f32 := broadcastInDim S4x16x4096x64 ![] bcast_S_S4x16x4096x64 main_cst
  let main_v2 : IVec S4x16x4096x64 1 := cmpf .olt main_v0 main_v1
  let main_c : IVec S_ 1 := constantI S_ 1 1#1
  let main_v3 : IVec S_ 1 := (fun x v => Host.reduce IntOp.andi x v reducesTo_S4x16x4096x64_S_d0_1_2_3 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S4x16x4096x64 : Shape := ⟨4, ![4, 16, 4096, 64]⟩
abbrev S256x64 : Shape := ⟨2, ![256, 64]⟩
abbrev S256 : Shape := ⟨1, ![256]⟩
abbrev S262144x64 : Shape := ⟨2, ![262144, 64]⟩
abbrev S1x256 : Shape := ⟨2, ![1, 256]⟩
abbrev S64x256 : Shape := ⟨2, ![64, 256]⟩
abbrev S262144x256 : Shape := ⟨2, ![262144, 256]⟩
abbrev S8192x64 : Shape := ⟨2, ![8192, 64]⟩
abbrev S8192x256 : Shape := ⟨2, ![8192, 256]⟩
abbrev S4x16x4096x256 : Shape := ⟨4, ![4, 16, 4096, 256]⟩

abbrev nBuf : Space → Nat
  | .hbm => 9
  | .vmem => 6
  | .smem => 0
  | _ => 0

abbrev bufTy : (tb : Table) → Fin (tcTables nBuf tb) → BufTy
  | .hbm, ⟨0, _⟩ => ⟨S4x16x4096x64, .f32⟩
  | .hbm, ⟨1, _⟩ => ⟨S256x64, .f32⟩
  | .hbm, ⟨2, _⟩ => ⟨S256, .f32⟩
  | .hbm, ⟨3, _⟩ => ⟨S262144x64, .f32⟩
  | .hbm, ⟨4, _⟩ => ⟨S1x256, .f32⟩
  | .hbm, ⟨5, _⟩ => ⟨S64x256, .f32⟩
  | .hbm, ⟨6, _⟩ => ⟨S64x256, .bf16⟩
  | .hbm, ⟨7, _⟩ => ⟨S262144x256, .f32⟩
  | .hbm, ⟨8, _⟩ => ⟨S4x16x4096x256, .f32⟩
  | .local _ .vmem, ⟨0, _⟩ => ⟨S8192x64, .f32⟩
  | .local _ .vmem, ⟨1, _⟩ => ⟨S8192x64, .f32⟩
  | .local _ .vmem, ⟨2, _⟩ => ⟨S64x256, .bf16⟩
  | .local _ .vmem, ⟨3, _⟩ => ⟨S1x256, .f32⟩
  | .local _ .vmem, ⟨4, _⟩ => ⟨S8192x256, .f32⟩
  | .local _ .vmem, ⟨5, _⟩ => ⟨S8192x256, .f32⟩
  | _, _ => ⟨S4x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x16x4096x64_S262144x64 : S4x16x4096x64.ShapeCasts S262144x64
  shapeCasts_S256_S1x256 : S256.ShapeCasts S1x256
  transposes_S256x64_S64x256_1_0 : S256x64.Transposes [1, 0] S64x256
  bitsLt_bf16_f32 : FTy.bits .bf16 < FTy.bits .f32
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  inb_S8192x256_S8192x256_0_0 : ∀ a, (![0, 0] : Fin 2 → Nat) a + S8192x256.size a ≤ S8192x256.size a
  h_S8192x256 : 0 < S8192x256.numel
  shapeCasts_S262144x256_S4x16x4096x256 : S262144x256.ShapeCasts S4x16x4096x256
  dot_S8192x64_S64x256_S8192x256_1_0_0_1_n_n_wf : DotDims.WF S8192x64 S64x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S262144x64.size a
  hwx0_0 : ∀ i : grid0.Coords, EltTy.bits .f32 = 32 ∨ (Rect.block (s := S262144x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .bf16 = 32 ∨ (Rect.block (s := S64x256) S64x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x256.size a ≤ S262144x256.size a
  hwx0_3 : ∀ i : grid0.Coords, EltTy.bits .f32 = 32 ∨ (Rect.block (s := S262144x256) S8192x256.size (cc0_transform_3 i) (hinb0_3 i)).WholeWords (EltTy.packing .f32)

variable [Facts₀]

def dot_S8192x64_S64x256_S8192x256_1_0_0_1_n_n : DotDims S8192x64 S64x256 S8192x256 where
  lhsContracting := [1]
  rhsContracting := [0]
  lhsNonContracting := [0]
  rhsNonContracting := [1]
  lhsBatch := []
  rhsBatch := []
  wf := dot_S8192x64_S64x256_S8192x256_1_0_0_1_n_n_wf

abbrev win0_0 : Pipeline.Window sig grid0 :=
  Pipeline.Window.ofSpec (Memref.whole main_v0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8192x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x4096x64 : Shape := ⟨4, ![4, 16, 4096, 64]⟩
abbrev S256x64 : Shape := ⟨2, ![256, 64]⟩
abbrev S256 : Shape := ⟨1, ![256]⟩
abbrev S4x16x4096x256 : Shape := ⟨4, ![4, 16, 4096, 256]⟩
abbrev S1x1x1x256 : Shape := ⟨4, ![1, 1, 1, 256]⟩

abbrev nBuf : Space → Nat
  | .hbm => 8
  | .vmem => 0
  | .smem => 0
  | _ => 0

abbrev bufTy : (tb : Table) → Fin (tcTables nBuf tb) → BufTy
  | .hbm, ⟨0, _⟩ => ⟨S4x16x4096x64, .f32⟩
  | .hbm, ⟨1, _⟩ => ⟨S256x64, .f32⟩
  | .hbm, ⟨2, _⟩ => ⟨S256, .f32⟩
  | .hbm, ⟨3, _⟩ => ⟨S4x16x4096x256, .f32⟩
  | .hbm, ⟨4, _⟩ => ⟨S1x1x1x256, .f32⟩
  | .hbm, ⟨5, _⟩ => ⟨S4x16x4096x256, .f32⟩
  | .hbm, ⟨6, _⟩ => ⟨S4x16x4096x256, .f32⟩
  | .hbm, ⟨7, _⟩ => ⟨S4x16x4096x256, .f32⟩
  | _, _ => ⟨S4x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S256_S1x1x1x256_3 : S256.BroadcastsInDim S1x1x1x256 (![3] : Fin 1 → Fin S1x1x1x256.rank)
  bcast_S1x1x1x256_S4x16x4096x256_0_1_2_3 : S1x1x1x256.BroadcastsInDim S4x16x4096x256 (![0, 1, 2, 3] : Fin 4 → Fin S4x16x4096x256.rank)
  dot_S4x16x4096x64_S256x64_S4x16x4096x256_3_1_012_0_n_n_wf : DotDims.WF S4x16x4096x64 S256x64 S4x16x4096x256 [3] [1] [0, 1, 2] [0] [] []

variable [Facts₀]

def dot_S4x16x4096x64_S256x64_S4x16x4096x256_3_1_012_0_n_n : DotDims S4x16x4096x64 S256x64 S4x16x4096x256 where
  lhsContracting := [3]
  rhsContracting := [1]
  lhsNonContracting := [0, 1, 2]
  rhsNonContracting := [0]
  lhsBatch := []
  rhsBatch := []
  wf := dot_S4x16x4096x64_S256x64_S4x16x4096x256_3_1_012_0_n_n_wf

class Facts : Prop extends Facts₀ where

variable [Facts]
-- ==== Proof.Spec.lean ====
/-
  The cosine random-feature map, as one function of its three argument arrays.

  For an input `x` of shape [4, 16, 4096, 64], a weight matrix `w` of shape [256, 64] and a bias `β` of shape [256],
  the feature map is, at the index (b, h, s, f),

      cos ( Σ_{k < 64} x[b, h, s, k] · w[f, k]  +  β[f] )

  over the extended reals: the sum is a finite sum in the commutative monoid of extended reals (so neither the
  order nor the grouping of its terms matters), and `cos` is the cosine on the finite values with a fixed
  convention at the two infinities.

  The same number is met in a second arrangement: the leading three axes of `x` flattened into one axis of
  262144 rows, the weight matrix transposed to [64, 256], the bias as a one-row matrix [1, 256]; there the entry
  at (r, f) is  cos ( Σ_k X[r, k] · Wt[k, f] + B[0, f] ).
-/
import Idealize.ShloMosaic.Lib.ValueIdx
import Idealize.ShloMosaic.PureOps.Ideal

noncomputable section

namespace Cert.FeatureMap

open Idealize.ShloMosaic Idealize.ShloMosaic.ValueIdx
open scoped BigOperators

/-- The feature at coordinates `(b, h, s, f)`: the cosine of the inner product of row `(b, h, s)` of `x` with row `f`
    of `w`, shifted by the bias of feature `f`. -/
def featAt (x : (⟨4, ![4, 16, 4096, 64]⟩ : Shape).Idx → EReal) (w : (⟨2, ![256, 64]⟩ : Shape).Idx → EReal)
    (β : (⟨1, ![256]⟩ : Shape).Idx → EReal) (b : Fin 4) (h : Fin 16) (s : Fin 4096) (f : Fin 256) : EReal :=
  Ideal.cos ((∑ k : Fin 64, x (ix4 b h s k) * w (ix2 f k)) + β (ix1 f))

/-- The whole feature array, index by index. -/
def feat (x : (⟨4, ![4, 16, 4096, 64]⟩ : Shape).Idx → EReal) (w : (⟨2, ![256, 64]⟩ : Shape).Idx → EReal)
    (β : (⟨1, ![256]⟩ : Shape).Idx → EReal) : (⟨4, ![4, 16, 4096, 256]⟩ : Shape).Idx → EReal :=
  fun i => featAt x w β (i 0) (i 1) (i 2) (i 3)

/-- The flattened arrangement at row `r` and feature `f`. -/
def rowsAt (X : (⟨2, ![262144, 64]⟩ : Shape).Idx → EReal) (Wt : (⟨2, ![64, 256]⟩ : Shape).Idx → EReal)
    (B : (⟨2, ![1, 256]⟩ : Shape).Idx → EReal) (r : Fin 262144) (f : Fin 256) : EReal :=
  Ideal.cos ((∑ k : Fin 64, X (ix2 r k) * Wt (ix2 k f)) + B (ix2 0 f))

/-- The flattened feature array, index by index. -/
def rows (X : (⟨2, ![262144, 64]⟩ : Shape).Idx → EReal) (Wt : (⟨2, ![64, 256]⟩ : Shape).Idx → EReal)
    (B : (⟨2, ![1, 256]⟩ : Shape).Idx → EReal) : (⟨2, ![262144, 256]⟩ : Shape).Idx → EReal :=
  fun j => rowsAt X Wt B (j 0) (j 1)

/-- If the flattened operands are the originals re-laid — row `r = (b·16 + h)·4096 + s` of `X` is row `(b, h, s)` of
    `x`, `Wt` is the transpose of `w`, `B`'s only row is `β` — the two arrangements hold the same number. -/
theorem rowsAt_eq_featAt (x : (⟨4, ![4, 16, 4096, 64]⟩ : Shape).Idx → EReal) (w : (⟨2, ![256, 64]⟩ : Shape).Idx → EReal)
    (β : (⟨1, ![256]⟩ : Shape).Idx → EReal)
    (X : (⟨2, ![262144, 64]⟩ : Shape).Idx → EReal) (Wt : (⟨2, ![64, 256]⟩ : Shape).Idx → EReal)
    (B : (⟨2, ![1, 256]⟩ : Shape).Idx → EReal)
    (b : Fin 4) (h : Fin 16) (s : Fin 4096) (f : Fin 256) (r : Fin 262144)
    (hX : ∀ k : Fin 64, X (ix2 r k) = x (ix4 b h s k))
    (hW : ∀ k : Fin 64, Wt (ix2 k f) = w (ix2 f k))
    (hB : B (ix2 0 f) = β (ix1 f)) :
    rowsAt X Wt B r f = featAt x w β b h s f := by
  unfold rowsAt featAt
  rw [hB]
  congr 2
  exact Finset.sum_congr rfl fun k _ => by rw [hX k, hW k]

end Cert.FeatureMap

end
-- ==== Proof.RefRead.lean ====
/-
  The reference program computes the feature map.

  Its five host operations are: the contraction of `x`'s last axis with `w`'s last axis (at the ideal instance the
  sum over `k` of `x[b,h,s,k] · w[f,k]`), the bias broadcast in two steps to the result's shape (entry `(b,h,s,f)`
  reads `β[f]`), their sum, and the cosine. Read at an index these are, term for term, the feature map of
  `Spec.lean`.
-/
import proofs.«133174_j72335839200093_2_alg».proof.Proof.Gen.ReferenceIdeal.Read
import proofs.«133174_j72335839200093_2_alg».proof.Proof.Spec

noncomputable section

namespace Cert.FeatureMap.Ref

open Cert.ReferenceIdeal Cert.ReferenceIdeal.Read Idealize.ShloMosaic Idealize.ShloMosaic.ValueIdx
open scoped BigOperators

/-- The contraction reads `x` in the result's row `(b, h, s)` at column `k`. -/
theorem lidx_eq (i : S4x16x4096x256.Idx) (k : Fin 64) : lidx_main_v0 i k = ix4 (i 0) (i 1) (i 2) k :=
  funext fun a => Fin.ext (by
    match a with
    | ⟨0, _⟩ => rfl
    | ⟨1, _⟩ => rfl
    | ⟨2, _⟩ => rfl
    | ⟨3, _⟩ => rfl)

/-- The contraction reads `w` in row `f` at column `k`. -/
theorem ridx_eq (i : S4x16x4096x256.Idx) (k : Fin 64) : ridx_main_v0 i k = ix2 (i 3) k :=
  funext fun a => Fin.ext (by
    match a with
    | ⟨0, _⟩ => rfl
    | ⟨1, _⟩ => rfl)

/-- The twice-broadcast bias reads `β` at the feature coordinate. -/
theorem bidx_eq (i : S4x16x4096x256.Idx) : idx_main_v1 (idx_main_v2 i) = ix1 (i 3) :=
  funext fun a => Fin.ext (by
    match a with
    | ⟨0, _⟩ => rfl)

/-- The reference's result is the feature map of its arguments. -/
theorem val_eq_feat (x : (⟨S4x16x4096x64, .f32⟩ : BufTy).Contents (Elt Ideal)) (w : (⟨S256x64, .f32⟩ : BufTy).Contents (Elt Ideal))
    (β : (⟨S256, .f32⟩ : BufTy).Contents (Elt Ideal)) :
    val_main_v4 (F := Ideal) x w β = feat x w β := by
  funext i
  rw [val_main_v4_apply, val_main_v3_apply, val_main_v0_apply, val_main_v2_apply, val_main_v1_apply]
  simp only [lidx_eq, ridx_eq, bidx_eq]
  rfl

end Cert.FeatureMap.Ref

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.Payload.lean ====
/-
  The kernel body's arithmetic at one entry of its output block.

  At a grid point the body holds a block `x0` of 8192 rows of the flattened input (8192 × 64), the whole transposed
  weight matrix `x1` (64 × 256) and the one-row bias `x2` (1 × 256). It narrows `x0`'s format (the identity on
  extended reals), multiplies the two matrices into an all-zero accumulator, adds the bias row broadcast down the
  8192 rows, and takes the cosine. At entry `(p, q)` of the block this is

      cos ( Σ_{k < 64} x0[p, k] · x1[k, q]  +  x2[0, q] ).
-/
import proofs.«133174_j72335839200093_2_alg».proof.Proof.Gen.KernelIdeal.Skeleton
import proofs.«133174_j72335839200093_2_alg».proof.Proof.LibMatmulRead
import Idealize.ShloMosaic.Lib.Pipeline.Value
import Idealize.ShloMosaic.Lib.ValueIdx
import Idealize.ShloMosaic.PureOps.Ideal.Laws

noncomputable section

namespace Cert.FeatureMap.Body

open Cert.KernelIdeal Cert.KernelIdeal.Gen Idealize.ShloMosaic Idealize.ShloMosaic.ValueIdx
open scoped BigOperators

/-- The bias row broadcast down the block's rows reads the row's entry in the same column. -/
theorem bias_bcast_apply (x2 : Vec Ideal S1x256 .f32) (p : Fin 8192) (q : Fin 256) :
    broadcastTo S8192x256 x2 Facts₀.broadcasts_S1x256_S8192x256 (ix2 p q) = x2 (ix2 0 q) :=
  broadcastTo_apply x2 _ (ix2 p q) (ix2 0 q) (fun a => by
    match a with
    | ⟨0, _⟩ => rfl
    | ⟨1, _⟩ => rfl)

/-- The body's stored value at entry `(p, q)` of the block. -/
theorem pay_apply (x0 : Vec Ideal S8192x64 .f32) (x1 : Vec Ideal S64x256 .bf16) (x2 : Vec Ideal S1x256 .f32)
    (p : Fin 8192) (q : Fin 256) :
    k0_pay1 (F := Ideal) x0 x1 x2 (ix2 p q)
      = Ideal.cos ((∑ k : Fin 64, x0 (ix2 p k) * x1 (ix2 k q)) + x2 (ix2 0 q)) := by
  unfold k0_pay1
  simp only [shapeCast_self]
  show Ideal.cos (FloatOps.matmul (F := Ideal) dot_S8192x64_S64x256_S8192x256_1_0_0_1_n_n none (truncf (F := Ideal) .bf16 x0 Facts₀.bitsLt_bf16_f32) x1
      (constant (F := Ideal) S8192x256 .f32 0x00000000#32) (ix2 p q) + broadcastTo S8192x256 x2 Facts₀.broadcasts_S1x256_S8192x256 (ix2 p q)) = _
  rw [MatmulRead.matmul_zero_ix2 ⟨rfl, rfl, rfl, rfl, rfl, rfl⟩ rfl rfl, bias_bcast_apply]
  rfl

end Cert.FeatureMap.Body

end
-- ==== Proof.Blocks.lean ====
/-
  From the blocks the grid points write back to the whole output array of the region.

  The region's grid has 32 points. Point `t` works on rows `t·8192 … t·8192 + 8191` of the flattened input — its
  block of the input and its block of the output sit at the same rows — and on the whole transposed weight matrix and
  the whole bias row. So what point `t` writes back is block `t` of ONE whole-array function: the flattened feature
  map `rows` of the three arrays the region was launched on. The 32 blocks tile the 262144 rows (row `r` is in the
  block of point `r / 8192`), hence the output array after the region is `rows` of those arrays.
-/
import proofs.«133174_j72335839200093_2_alg».proof.Proof.Gen.KernelIdeal.Frame
import proofs.«133174_j72335839200093_2_alg».proof.Proof.Payload
import proofs.«133174_j72335839200093_2_alg».proof.Proof.Spec
import Idealize.ShloMosaic.Lib.Pipeline.Value

set_option maxRecDepth 16384

noncomputable section

namespace Cert.FeatureMap.Blocks

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

theorem offset_zero : (![0, 0] : Fin 2 → Nat) = fun _ => 0 := funext fun a => by fin_cases a <;> rfl

/-- The block indices of the four windows at point `t`: the input's and the output's row block is `t`, every other
    block index is `0`. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The flattened feature map of the arrays the region is launched on. -/
abbrev regionRows (c : Dev nD) : S262144x256.Idx → EReal :=
  rows (V m c main_v0) (V m c main_v3) (V m c main_v1)

/-- What point `t` writes back is block `t` of the flattened feature map. -/
theorem flushed_eq (c : Dev nD) (t : Fin cfg0.N) :
    (dats m 0 c).flushed 3 t = ((cfg0.win 3).blk t).view.read (Elt Ideal) (regionRows m c) := by
  show (cfg0.win 3).cut (grid0.coords t) ((dats m 0 c).after 3 t) = _
  rw [after0_3]
  unfold out0_3
  rw [View.canon_unit_zero offset_zero]
  simp only [View.ld_unit_zero (S := S8192x64) offset_zero, View.ld_unit_zero (S := S64x256) offset_zero,
    View.ld_unit_zero (S := S1x256) offset_zero]
  obtain ⟨e00, e01, e10, e11, e20, e21, e30, e31⟩ := block_index t
  funext y
  obtain ⟨p, q, rfl⟩ : ∃ (p : Fin 8192) (q : Fin 256), y = ix2 p q := ⟨y 0, y 1, eq_ix2 y⟩
  show k0_pay1 (F := Ideal) (iblk m c 0 t) (iblk m c 1 t) (iblk m c 2 t) (ix2 p q)
    = rowsAt (V m c main_v0) (V m c main_v3) (V m c main_v1)
        ((((cfg0.win 3).blk t).view.emb (ix2 p q)) 0) ((((cfg0.win 3).blk t).view.emb (ix2 p q)) 1)
  refine (Body.pay_apply (iblk m c 0 t) (iblk m c 1 t) (iblk m c 2 t) p q).trans ?_
  unfold rowsAt
  have h0 : ∀ k : Fin 64, iblk m c 0 t (ix2 p k)
      = V m c main_v0 (ix2 ((((cfg0.win 3).blk t).view.emb (ix2 p q)) 0) k) := fun k => by
    show V m c main_v0 (((cfg0.win 0).blk t).view.emb (ix2 p k)) = _
    refine congrArg (V m c main_v0) (funext fun a => Fin.ext ?_)
    match a with
    | ⟨0, _⟩ => show win0_0.index t (0 : Fin 2) * 8192 + 1 * p.val = win0_3.index t (0 : Fin 2) * 8192 + 1 * p.val; omega
    | ⟨1, _⟩ => show win0_0.index t (1 : Fin 2) * 64 + 1 * k.val = k.val; omega
  have h1 : ∀ k : Fin 64, iblk m c 1 t (ix2 k q)
      = V m c main_v3 (ix2 k ((((cfg0.win 3).blk t).view.emb (ix2 p q)) 1)) := fun k => by
    show V m c main_v3 (((cfg0.win 1).blk t).view.emb (ix2 k q)) = _
    refine congrArg (V m c main_v3) (funext fun a => Fin.ext ?_)
    match a with
    | ⟨0, _⟩ => show win0_1.index t (0 : Fin 2) * 64 + 1 * k.val = k.val; omega
    | ⟨1, _⟩ => show win0_1.index t (1 : Fin 2) * 256 + 1 * q.val = win0_3.index t (1 : Fin 2) * 256 + 1 * q.val; omega
  have h2 : iblk m c 2 t (ix2 0 q)
      = V m c main_v1 (ix2 0 ((((cfg0.win 3).blk t).view.emb (ix2 p q)) 1)) := by
    show V m c main_v1 (((cfg0.win 2).blk t).view.emb (ix2 0 q)) = _
    refine congrArg (V m c main_v1) (funext fun a => Fin.ext ?_)
    match a with
    | ⟨0, _⟩ => show win0_2.index t (0 : Fin 2) * 1 + 1 * 0 = 0; omega
    | ⟨1, _⟩ => show win0_2.index t (1 : Fin 2) * 256 + 1 * q.val = win0_3.index t (1 : Fin 2) * 256 + 1 * q.val; omega
  rw [h2]
  congr 2
  exact Finset.sum_congr rfl fun k _ => by rw [h0 k, h1 k]

/-- An index of the output array is in point `t`'s block iff each coordinate is in the block's range on its axis. -/
theorem mem_blk (t : Fin cfg0.N) (i : S262144x256.Idx) :
    i ∈ ((cfg0.win 3).blk t).view.set ↔ ∀ a : Fin 2, win0_3.index t a * S8192x256.size a ≤ (i a).val ∧ (i a).val < win0_3.index t a * S8192x256.size a + S8192x256.size a := by
  show i ∈ ((View.whole main_v4).slice (win0_3.rect t)).set ↔ _
  rw [View.set_slice_whole, Rect.mem_set_unit]
  exact Iff.rfl

/-- Every index of the output array is in the block of the point `row / 8192`. -/
theorem cover (i : S262144x256.Idx) :
    ∃ t : Fin cfg0.N, (cfg0.win 3).flush t = true ∧ i ∈ ((cfg0.win 3).blk t).view.set := by
  have hi0 : (i 0).val < 262144 := (i 0).isLt
  have hi1 : (i 1).val < 256 := (i 1).isLt
  have hN : (i 0).val / 8192 < cfg0.N := by
    show (i 0).val / 8192 < grid0.N
    rw [N_0]
    omega
  refine ⟨⟨(i 0).val / 8192, hN⟩, flush0_3 _, ?_⟩
  obtain ⟨-, -, -, -, -, -, e30, e31⟩ := block_index ⟨(i 0).val / 8192, hN⟩
  rw [mem_blk]
  intro a
  match a with
  | ⟨0, _⟩ =>
    show win0_3.index _ (0 : Fin 2) * 8192 ≤ (i 0).val ∧ (i 0).val < win0_3.index _ (0 : Fin 2) * 8192 + 8192
    rw [e30]
    show (i 0).val / 8192 * 8192 ≤ (i 0).val ∧ (i 0).val < (i 0).val / 8192 * 8192 + 8192
    omega
  | ⟨1, _⟩ =>
    show win0_3.index _ (1 : Fin 2) * 256 ≤ (i 1).val ∧ (i 1).val < win0_3.index _ (1 : Fin 2) * 256 + 256
    rw [e31]
    omega

/-- The output array after the region is the flattened feature map of the arrays the region was launched on. -/
theorem final (c : Dev nD) : (dats m 0 c).arrAt 3 cfg0.N = regionRows m c :=
  (dats m 0 c).arrAt_eq_of_cover 3 (regionRows m c) (fun t _ => flushed_eq m c t) cover

end Cert.FeatureMap.Blocks

end
-- ==== Proof.HostPrefix.lean ====
/-
  The three arrays the region is launched on, as functions of the program's arguments.

  Before the region the program re-lays its arguments: `x` is flattened to 262144 rows of 64, the bias becomes a
  one-row matrix, and `w` is transposed and its format narrowed (the identity on extended reals). A flattening
  keeps each element's row-major position, so row `(b·16 + h)·4096 + s` of the flat array is row `(b, h, s)` of `x`;
  the transpose swaps the two coordinates.
-/
import proofs.«133174_j72335839200093_2_alg».proof.Proof.Gen.KernelIdeal.Frame
import Idealize.ShloMosaic.Lib.Pipeline.Value
import Idealize.ShloMosaic.Lib.ValueIdx
import Idealize.ShloMosaic.Lib.StableHlo.Run

noncomputable section

namespace Cert.FeatureMap.Prefix

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The flattened input the region finds. -/
theorem V_flat (c : Dev nD) :
    (V m c main_v0 : S262144x64.Idx → EReal)
      = shapeCast S262144x64 (m ((c : Thread nD τ).loc main_arg0)) Facts₀.shapeCasts_S4x16x4096x64_S262144x64 := by
  show StableHlo.after hostOps0 (fun b => m (c, b)) (Proc.devRef .tc main_v0) = _
  after_results
  rfl

/-- The one-row bias the region finds. -/
theorem V_bias (c : Dev nD) :
    (V m c main_v1 : S1x256.Idx → EReal)
      = shapeCast S1x256 (m ((c : Thread nD τ).loc main_arg2)) Facts₀.shapeCasts_S256_S1x256 := by
  show StableHlo.after hostOps0 (fun b => m (c, b)) (Proc.devRef .tc main_v1) = _
  after_results
  rfl

/-- The transposed weights the region finds. -/
theorem V_wt (c : Dev nD) :
    (V m c main_v3 : S64x256.Idx → EReal)
      = truncf (F := Ideal) .bf16 (transpose S64x256 [1, 0] (m ((c : Thread nD τ).loc main_arg1)) Facts₀.transposes_S256x64_S64x256_1_0)
          Facts₀.bitsLt_bf16_f32 := by
  show StableHlo.after hostOps0 (fun b => m (c, b)) (Proc.devRef .tc main_v3) = _
  after_results

/-- Row `r = (b·16 + h)·4096 + s` of the flattened input is row `(b, h, s)` of `x`. -/
theorem flat_apply (x : S4x16x4096x64.Idx → EReal) (b : Fin 4) (h : Fin 16) (s : Fin 4096) (k : Fin 64) (r : Fin 262144)
    (hr : r.val = (b.val * 16 + h.val) * 4096 + s.val) :
    shapeCast S262144x64 x Facts₀.shapeCasts_S4x16x4096x64_S262144x64 (ix2 r k) = x (ix4 b h s k) :=
  shapeCast_apply x _ (ix2 r k) (ix4 b h s k) (by
    rw [Shape.rowMajor_val_four, Shape.rowMajor_val_two]
    show ((b.val * 16 + h.val) * 4096 + s.val) * 64 + k.val = r.val * 64 + k.val
    rw [hr])

/-- The one-row bias at column `f` is `β[f]`. -/
theorem bias_apply (β : S256.Idx → EReal) (f : Fin 256) :
    shapeCast S1x256 β Facts₀.shapeCasts_S256_S1x256 (ix2 0 f) = β (ix1 f) :=
  shapeCast_apply β _ (ix2 0 f) (ix1 f) (by
    rw [Shape.rowMajor_val_one, Shape.rowMajor_val_two]
    show f.val = 0 * 256 + f.val
    omega)

/-- The transposed (and format-narrowed) weights at `(k, f)` are `w[f, k]`. -/
theorem wt_apply (w : S256x64.Idx → EReal) (k : Fin 64) (f : Fin 256) :
    truncf (F := Ideal) .bf16 (transpose S64x256 [1, 0] w Facts₀.transposes_S256x64_S64x256_1_0) Facts₀.bitsLt_bf16_f32 (ix2 k f)
      = w (ix2 f k) := by
  show transpose S64x256 [1, 0] w Facts₀.transposes_S256x64_S64x256_1_0 (ix2 k f) = _
  exact transpose_apply [1, 0] w _ (ix2 k f) (ix2 f k) (fun b => by
    match b with
    | ⟨0, _⟩ => rfl
    | ⟨1, _⟩ => rfl)

end Cert.FeatureMap.Prefix

end
-- ==== Proof.KernelRun.lean ====
/-
  The kernel program's run, read: its result is the feature map of its arguments.

  After the region the program reshapes the 262144 × 256 output back to [4, 16, 4096, 256]. A reshape keeps each
  element's row-major position, so entry `(b, h, s, f)` of the result is entry `((b·16 + h)·4096 + s, f)` of the
  region's output, which is the flattened feature map of the re-laid arguments — and that is the feature at
  `(b, h, s, f)` of the arguments themselves.
-/
import proofs.«133174_j72335839200093_2_alg».proof.Proof.Gen.KernelIdeal.Frame
import proofs.«133174_j72335839200093_2_alg».proof.Proof.Blocks
import proofs.«133174_j72335839200093_2_alg».proof.Proof.HostPrefix
import proofs.«133174_j72335839200093_2_alg».proof.Proof.Spec
import Idealize.ShloMosaic.Lib.Pipeline.Value
import Idealize.ShloMosaic.Lib.StableHlo.Run

set_option maxRecDepth 16384

noncomputable section

namespace Cert.FeatureMap.Kernel

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- Entry `(r, f)` of the region's output, for `r = (b·16 + h)·4096 + s`, is the feature at `(b, h, s, f)` of the
    program's arguments. -/
theorem regionRows_apply (c : Dev nD) (b : Fin 4) (h : Fin 16) (s : Fin 4096) (f : Fin 256) (r : Fin 262144)
    (hr : r.val = (b.val * 16 + h.val) * 4096 + s.val) :
    Blocks.regionRows m c (ix2 r f)
      = featAt (m ((c : Thread nD τ).loc main_arg0)) (m ((c : Thread nD τ).loc main_arg1)) (m ((c : Thread nD τ).loc main_arg2)) b h s f := by
  show rowsAt (V m c main_v0) (V m c main_v3) (V m c main_v1) r f = _
  refine rowsAt_eq_featAt _ _ _ _ _ _ b h s f r (fun k => ?_) (fun k => ?_) ?_
  · exact (congrFun (Prefix.V_flat m c) (ix2 r k)).trans (Prefix.flat_apply _ b h s k r hr)
  · exact (congrFun (Prefix.V_wt m c) (ix2 k f)).trans (Prefix.wt_apply _ k f)
  · exact (congrFun (Prefix.V_bias m c) (ix2 0 f)).trans (Prefix.bias_apply _ f)

/-- The program's result buffer after the run. -/
theorem result_eq (c : Dev nD) :
    Pipeline.afterTail₀ cfgs (dats m) 0 (V0 m) [hostOps1] c main_v5
      = feat (m ((c : Thread nD τ).loc main_arg0)) (m ((c : Thread nD τ).loc main_arg1)) (m ((c : Thread nD τ).loc main_arg2)) := by
  unfold Pipeline.afterTail₀
  show StableHlo.after hostOps1 _ (Proc.devRef .tc main_v5) = _
  after_results
  funext i
  obtain ⟨b, h, s, f, rfl⟩ : ∃ (b : Fin 4) (h : Fin 16) (s : Fin 4096) (f : Fin 256), i = ix4 b h s f :=
    ⟨i 0, i 1, i 2, i 3, eq_ix4 i⟩
  show shapeCast S4x16x4096x256 (Pipeline.withArrays spec0 c (V0 m c) (fun w => (dats m 0 c).arrAt w cfg0.N) (Proc.devRef .tc main_v4))
      Facts₀.shapeCasts_S262144x256_S4x16x4096x256 (ix4 b h s f) = featAt _ _ _ b h s f
  rw [show Pipeline.withArrays spec0 c (V0 m c) (fun w => (dats m 0 c).arrAt w cfg0.N) (Proc.devRef .tc main_v4)
        = Blocks.regionRows m c from
      (Pipeline.withArrays_arr spec0 launch0.win.arr_inj c _ _ 3).trans (Blocks.final m c)]
  have hb := b.isLt
  have hh := h.isLt
  have hs := s.isLt
  have hr : (b.val * 16 + h.val) * 4096 + s.val < 262144 := by omega
  refine (shapeCast_apply _ _ (ix4 b h s f) (ix2 ⟨(b.val * 16 + h.val) * 4096 + s.val, hr⟩ f) ?_).trans
    (regionRows_apply m c b h s f _ rfl)
  rw [Shape.rowMajor_val_two, Shape.rowMajor_val_four]
  rfl

/-- Every weakly fair execution of the kernel program terminates with its result at the feature map of its arguments,
    the arguments unchanged. -/
theorem run : θ_run defs (onTc (τ := τ) (main (F := Ideal))) ⟨m, fun _ => 0, ρ⟩ fun r => ∀ c : Dev nD,
      r.2.mem ((c.tc : Thread nD τ).loc main_v5)
        = feat (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v5 (Pipeline.mem_restRefs_of main_v5 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.FeatureMap.Kernel

end
-- ==== Proof.lean ====
/-
  The cosine random-feature map, kernel against reference, over the extended reals.

  Both programs take `x` : [4, 16, 4096, 64], `w` : [256, 64] and a bias `β` : [256] and return, at `(b, h, s, f)`,

      cos ( Σ_{k < 64} x[b, h, s, k] · w[f, k]  +  β[f] ).

  The reference contracts `x`'s last axis with `w`'s last axis, adds the broadcast bias and takes the cosine. The
  kernel flattens `x` to 262144 rows, transposes `w`, and on each of 32 blocks of 8192 rows multiplies the block by the
  transposed weights into a zero accumulator, adds the bias row and takes the cosine; the blocks tile the rows, and
  the output is reshaped back. Read at the ideal instance (a change of float format is the identity, the zero
  accumulator is the additive identity, both cosines are the one function `Ideal.cos`) the two results are the same
  sum of the same products, index by index; no law beyond rewriting each side to that common form is used, so the
  finiteness of the inputs is never opened.

  The modules: `Spec` (the feature map as one function, and its flattened arrangement), `RefRead` (the reference is
  that function), `Payload` (the kernel body at one entry), `HostPrefix` (the re-laid arrays the region is launched
  on), `Blocks` (from the 32 blocks to the region's whole output), `KernelRun` (the reshape back, and the kernel
  program's run). The three frames are the generated ones; the idealization rewrote nothing, so it is preserved
  trivially.
-/
import proofs.«133174_j72335839200093_2_alg».proof.Defs
import proofs.«133174_j72335839200093_2_alg».proof.Proof.Gen.Kernel
import proofs.«133174_j72335839200093_2_alg».proof.Proof.Gen.Kernel.Skeleton
import proofs.«133174_j72335839200093_2_alg».proof.Proof.Gen.Kernel.Launch
import proofs.«133174_j72335839200093_2_alg».proof.Proof.Gen.Kernel.Points
import proofs.«133174_j72335839200093_2_alg».proof.Proof.Gen.Kernel.Frame
import proofs.«133174_j72335839200093_2_alg».proof.Proof.Gen.KernelIdeal
import proofs.«133174_j72335839200093_2_alg».proof.Proof.Gen.KernelIdeal.Skeleton
import proofs.«133174_j72335839200093_2_alg».proof.Proof.Gen.KernelIdeal.Launch
import proofs.«133174_j72335839200093_2_alg».proof.Proof.Gen.KernelIdeal.Points
import proofs.«133174_j72335839200093_2_alg».proof.Proof.Gen.KernelIdeal.Frame
import proofs.«133174_j72335839200093_2_alg».proof.Proof.Gen.ReferenceIdeal
import proofs.«133174_j72335839200093_2_alg».proof.Proof.Gen.Pre_finite_inputs
import proofs.«133174_j72335839200093_2_alg».proof.Proof.Gen.ReferenceIdeal.Run
import proofs.«133174_j72335839200093_2_alg».proof.Proof.Gen.ReferenceIdeal.Read
import proofs.«133174_j72335839200093_2_alg».proof.Proof.RefRead
import proofs.«133174_j72335839200093_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the kernel program read at the ideal instance. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the feature map of those arguments. -/
theorem algebraic : Cert.algebraic_KernelIdeal_ReferenceIdeal := by
  intro m ρ m' ρ' _ hagree
  refine ⟨fun c => Cert.FeatureMap.feat
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.FeatureMap.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.FeatureMap.Ref.val_eq_feat, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
